-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x3 : Shape := ⟨3, ![8, 16384, 3]⟩
abbrev S8x16384x3x3x3 : Shape := ⟨5, ![8, 16384, 3, 3, 3]⟩
abbrev S16384x24 : Shape := ⟨2, ![16384, 24]⟩
abbrev S64x3 : Shape := ⟨2, ![64, 3]⟩
abbrev S64 : Shape := ⟨1, ![64]⟩
abbrev S_ : Shape := ⟨0, ![]⟩

class Facts : Prop where
  bcast_S_S8x16384x3 : S_.BroadcastsInDim S8x16384x3 (![] : Fin 0 → Fin S8x16384x3.rank)
  reducesTo_S8x16384x3_S_d0_1_2 : S8x16384x3.ReducesTo [0, 1, 2] S_
  h_S_ : 0 < S_.numel
  bcast_S_S8x16384x3x3x3 : S_.BroadcastsInDim S8x16384x3x3x3 (![] : Fin 0 → Fin S8x16384x3x3x3.rank)
  reducesTo_S8x16384x3x3x3_S_d0_1_2_3_4 : S8x16384x3x3x3.ReducesTo [0, 1, 2, 3, 4] S_
  bcast_S_S16384x24 : S_.BroadcastsInDim S16384x24 (![] : Fin 0 → Fin S16384x24.rank)
  reducesTo_S16384x24_S_d0_1 : S16384x24.ReducesTo [0, 1] S_
  bcast_S_S64x3 : S_.BroadcastsInDim S64x3 (![] : Fin 0 → Fin S64x3.rank)
  reducesTo_S64x3_S_d0_1 : S64x3.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S16384x24 .f32) (main_arg6 : FVec F S64x3 .f32) (main_arg7 : FVec F S64 .f32) (main_v13 : IVec S_ 1) (main_v16 : IVec S16384x24 1) : IVec S_ 1 :=
  let main_c_5 : IVec S_ 1 := constantI S_ 1 1#1
  let main_v17 : IVec S_ 1 := (fun x v => Host.reduce IntOp.andi x v reducesTo_S16384x24_S_d0_1 h_S_) main_v16 main_c_5
  let main_v18 : IVec S_ 1 := andi main_v13 main_v17
  let main_v19 : FVec F S16384x24 .f32 := Host.absf main_arg5
  let main_cst_6 : FVec F S_ .f32 := constant S_ .f32 0x7F800000#32
  let main_v20 : FVec F S16384x24 .f32 := broadcastInDim S16384x24 ![] bcast_S_S16384x24 main_cst_6
  let main_v21 : IVec S16384x24 1 := cmpf .olt main_v19 main_v20
  let main_c_7 : IVec S_ 1 := constantI S_ 1 1#1
  let main_v22 : IVec S_ 1 := (fun x v => Host.reduce IntOp.andi x v reducesTo_S16384x24_S_d0_1 h_S_) main_v21 main_c_7
  let main_v23 : IVec S_ 1 := andi main_v18 main_v22
  let main_v24 : FVec F S64x3 .f32 := Host.absf main_arg6
  let main_cst_8 : FVec F S_ .f32 := constant S_ .f32 0x7F800000#32
  let main_v25 : FVec F S64x3 .f32 := broadcastInDim S64x3 ![] bcast_S_S64x3 main_cst_8
  let main_v26 : IVec S64x3 1 := cmpf .olt main_v24 main_v25
  let main_c_9 : IVec S_ 1 := constantI S_ 1 1#1
  let main_v27 : IVec S_ 1 := (fun x v => Host.reduce IntOp.andi x v reducesTo_S64x3_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8x16384x3 .f32) (main_arg1 : IVec S8x16384x3 32) (main_arg2 : FVec F S8x16384x3x3x3 .f32) (main_arg3 : FVec F S16384x24 .f32) (main_arg4 : FVec F S16384x24 .f32) (main_arg5 : FVec F S16384x24 .f32) (main_arg6 : FVec F S64x3 .f32) (main_arg7 : FVec F S64 .f32) : IVec S_ 1 :=
  let main_v0 : FVec F S8x16384x3 .f32 := Host.absf main_arg0
  let main_cst : FVec F S_ .f32 := constant S_ .f32 0x7F800000#32
  let main_v1 : FVec F S8x16384x3 .f32 := broadcastInDim S8x16384x3 ![] bcast_S_S8x16384x3 main_cst
  let main_v2 : IVec S8x16384x3 1 := cmpf .olt main_v0 main_v1
  let main_c : IVec S_ 1 := constantI S_ 1 1#1
  let main_v3 : IVec S_ 1 := (fun x v => Host.reduce IntOp.andi x v reducesTo_S8x16384x3_S_d0_1_2 h_S_) main_v2 main_c
  let main_v4 : FVec F S8x16384x3x3x3 .f32 := Host.absf main_arg2
  let main_cst_0 : FVec F S_ .f32 := constant S_ .f32 0x7F800000#32
  let main_v5 : FVec F S8x16384x3x3x3 .f32 := broadcastInDim S8x16384x3x3x3 ![] bcast_S_S8x16384x3x3x3 main_cst_0
  let main_v6 : IVec S8x16384x3x3x3 1 := cmpf .olt main_v4 main_v5
  let main_c_1 : IVec S_ 1 := constantI S_ 1 1#1
  let main_v7 : IVec S_ 1 := (fun x v => Host.reduce IntOp.andi x v reducesTo_S8x16384x3x3x3_S_d0_1_2_3_4 h_S_) main_v6 main_c_1
  let main_v8 : IVec S_ 1 := andi main_v3 main_v7
  let main_v9 : FVec F S16384x24 .f32 := Host.absf main_arg3
  let main_cst_2 : FVec F S_ .f32 := constant S_ .f32 0x7F800000#32
  let main_v10 : FVec F S16384x24 .f32 := broadcastInDim S16384x24 ![] bcast_S_S16384x24 main_cst_2
  let main_v11 : IVec S16384x24 1 := cmpf .olt main_v9 main_v10
  let main_c_3 : IVec S_ 1 := constantI S_ 1 1#1
  let main_v12 : IVec S_ 1 := (fun x v => Host.reduce IntOp.andi x v reducesTo_S16384x24_S_d0_1 h_S_) main_v11 main_c_3
  let main_v13 : IVec S_ 1 := andi main_v8 main_v12
  let main_v14 : FVec F S16384x24 .f32 := Host.absf main_arg4
  let main_cst_4 : FVec F S_ .f32 := constant S_ .f32 0x7F800000#32
  let main_v15 : FVec F S16384x24 .f32 := broadcastInDim S16384x24 ![] bcast_S_S16384x24 main_cst_4
  let main_v16 : IVec S16384x24 1 := cmpf .olt main_v14 main_v15
  fn_part1 (F := F) main_arg5 main_arg6 main_arg7 main_v13 main_v16
-- ==== Kernel.lean ====
abbrev S8x16384x3 : Shape := ⟨3, ![8, 16384, 3]⟩
abbrev S8x16384x3x3x3 : Shape := ⟨5, ![8, 16384, 3, 3, 3]⟩
abbrev S16384x24 : Shape := ⟨2, ![16384, 24]⟩
abbrev S64x3 : Shape := ⟨2, ![64, 3]⟩
abbrev S64 : Shape := ⟨1, ![64]⟩
abbrev S8x16384x27 : Shape := ⟨3, ![8, 16384, 27]⟩
abbrev S3x64 : Shape := ⟨2, ![3, 64]⟩
abbrev S1x64 : Shape := ⟨2, ![1, 64]⟩
abbrev S16384x24x3 : Shape := ⟨3, ![16384, 24, 3]⟩
abbrev S16384x72 : Shape := ⟨2, ![16384, 72]⟩
abbrev S8x16384x64 : Shape := ⟨3, ![8, 16384, 64]⟩
abbrev S1x2048x3 : Shape := ⟨3, ![1, 2048, 3]⟩
abbrev S1x2048x27 : Shape := ⟨3, ![1, 2048, 27]⟩
abbrev S2048x72 : Shape := ⟨2, ![2048, 72]⟩
abbrev S1x2048x64 : Shape := ⟨3, ![1, 2048, 64]⟩
abbrev S2048x3 : Shape := ⟨2, ![2048, 3]⟩
abbrev S2048x64 : Shape := ⟨2, ![2048, 64]⟩

abbrev nBuf : Space → Nat
  | .hbm => 18
  | .vmem => 14
  | .smem => 0
  | _ => 0

abbrev bufTy : (tb : Table) → Fin (tcTables nBuf tb) → BufTy
  | .hbm, ⟨0, _⟩ => ⟨S8x16384x3, .f32⟩
  | .hbm, ⟨1, _⟩ => ⟨S8x16384x3, .i32⟩
  | .hbm, ⟨2, _⟩ => ⟨S8x16384x3x3x3, .f32⟩
  | .hbm, ⟨3, _⟩ => ⟨S16384x24, .f32⟩
  | .hbm, ⟨4, _⟩ => ⟨S16384x24, .f32⟩
  | .hbm, ⟨5, _⟩ => ⟨S16384x24, .f32⟩
  | .hbm, ⟨6, _⟩ => ⟨S64x3, .f32⟩
  | .hbm, ⟨7, _⟩ => ⟨S64, .f32⟩
  | .hbm, ⟨8, _⟩ => ⟨S8x16384x27, .f32⟩
  | .hbm, ⟨9, _⟩ => ⟨S3x64, .f32⟩
  | .hbm, ⟨10, _⟩ => ⟨S1x64, .f32⟩
  | .hbm, ⟨11, _⟩ => ⟨S16384x24x3, .f32⟩
  | .hbm, ⟨12, _⟩ => ⟨S16384x72, .f32⟩
  | .hbm, ⟨13, _⟩ => ⟨S16384x24x3, .f32⟩
  | .hbm, ⟨14, _⟩ => ⟨S16384x72, .f32⟩
  | .hbm, ⟨15, _⟩ => ⟨S16384x24x3, .f32⟩
  | .hbm, ⟨16, _⟩ => ⟨S16384x72, .f32⟩
  | .hbm, ⟨17, _⟩ => ⟨S8x16384x64, .f32⟩
  | .local _ .vmem, ⟨0, _⟩ => ⟨S1x2048x3, .f32⟩
  | .local _ .vmem, ⟨1, _⟩ => ⟨S1x2048x3, .f32⟩
  | .local _ .vmem, ⟨2, _⟩ => ⟨S1x2048x27, .f32⟩
  | .local _ .vmem, ⟨3, _⟩ => ⟨S1x2048x27, .f32⟩
  | .local _ .vmem, ⟨4, _⟩ => ⟨S2048x72, .f32⟩
  | .local _ .vmem, ⟨5, _⟩ => ⟨S2048x72, .f32⟩
  | .local _ .vmem, ⟨6, _⟩ => ⟨S2048x72, .f32⟩
  | .local _ .vmem, ⟨7, _⟩ => ⟨S2048x72, .f32⟩
  | .local _ .vmem, ⟨8, _⟩ => ⟨S2048x72, .f32⟩
  | .local _ .vmem, ⟨9, _⟩ => ⟨S2048x72, .f32⟩
  | .local _ .vmem, ⟨10, _⟩ => ⟨S3x64, .f32⟩
  | .local _ .vmem, ⟨11, _⟩ => ⟨S1x64, .f32⟩
  | .local _ .vmem, ⟨12, _⟩ => ⟨S1x2048x64, .f32⟩
  | .local _ .vmem, ⟨13, _⟩ => ⟨S1x2048x64, .f32⟩
  | _, _ => ⟨S8x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x27 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x72 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x72 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x72 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S8x16384x3x3x3_S8x16384x27 : S8x16384x3x3x3.ShapeCasts S8x16384x27
  transposes_S64x3_S3x64_1_0 : S64x3.Transposes [1, 0] S3x64
  shapeCasts_S64_S1x64 : S64.ShapeCasts S1x64
  bcast_S16384x24_S16384x24x3_0_1 : S16384x24.BroadcastsInDim S16384x24x3 (![0, 1] : Fin 2 → Fin S16384x24x3.rank)
  shapeCasts_S16384x24x3_S16384x72 : S16384x24x3.ShapeCasts S16384x72
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x2048x27_S1x2048x3_0_0_0 : ∀ a, (![0, 0, 0] : Fin 3 → Nat) a + S1x2048x3.size a ≤ S1x2048x27.size a
  inb_S1x2048x27_S1x2048x3_0_0_3 : ∀ a, (![0, 0, 3] : Fin 3 → Nat) a + S1x2048x3.size a ≤ S1x2048x27.size a
  inb_S1x2048x27_S1x2048x3_0_0_6 : ∀ a, (![0, 0, 6] : Fin 3 → Nat) a + S1x2048x3.size a ≤ S1x2048x27.size a
  inb_S1x2048x27_S1x2048x3_0_0_9 : ∀ a, (![0, 0, 9] : Fin 3 → Nat) a + S1x2048x3.size a ≤ S1x2048x27.size a
  inb_S1x2048x27_S1x2048x3_0_0_12 : ∀ a, (![0, 0, 12] : Fin 3 → Nat) a + S1x2048x3.size a ≤ S1x2048x27.size a
  inb_S1x2048x27_S1x2048x3_0_0_15 : ∀ a, (![0, 0, 15] : Fin 3 → Nat) a + S1x2048x3.size a ≤ S1x2048x27.size a
  inb_S1x2048x27_S1x2048x3_0_0_18 : ∀ a, (![0, 0, 18] : Fin 3 → Nat) a + S1x2048x3.size a ≤ S1x2048x27.size a
  inb_S1x2048x27_S1x2048x3_0_0_21 : ∀ a, (![0, 0, 21] : Fin 3 → Nat) a + S1x2048x3.size a ≤ S1x2048x27.size a
  inb_S1x2048x27_S1x2048x3_0_0_24 : ∀ a, (![0, 0, 24] : Fin 3 → Nat) a + S1x2048x3.size a ≤ S1x2048x27.size a
  concatenates_S2048x3_S2048x3_S2048x3_S2048x3_S2048x3_S2048x3_S2048x3_S2048x3_S2048x3_S2048x3_S2048x3_S2048x3_S2048x3_S2048x3_S2048x3_S2048x3_S2048x3_S2048x3_S2048x3_S2048x3_S2048x3_S2048x3_S2048x3_S2048x3_S2048x72_d1 : Shape.Concatenates [S2048x3, S2048x3, S2048x3, S2048x3, S2048x3, S2048x3, S2048x3, S2048x3, S2048x3, S2048x3, S2048x3, S2048x3, S2048x3, S2048x3, S2048x3, S2048x3, S2048x3, S2048x3, S2048x3, S2048x3, S2048x3, S2048x3, S2048x3, S2048x3] S2048x72 1
  inb_S2048x72_S2048x72_0_0 : ∀ a, (![0, 0] : Fin 2 → Nat) a + S2048x72.size a ≤ S2048x72.size a
  h_S2048x72 : 0 < S2048x72.numel
  shapeCasts_S2048x72_S2048x72 : S2048x72.ShapeCasts S2048x72
  slices_S2048x72_o0_0_S2048x3 : S2048x72.Slices ![0, 0] S2048x3
  slices_S2048x72_o0_3_S2048x3 : S2048x72.Slices ![0, 3] S2048x3
  slices_S2048x72_o0_6_S2048x3 : S2048x72.Slices ![0, 6] S2048x3
  slices_S2048x72_o0_9_S2048x3 : S2048x72.Slices ![0, 9] S2048x3
  slices_S2048x72_o0_12_S2048x3 : S2048x72.Slices ![0, 12] S2048x3
  slices_S2048x72_o0_15_S2048x3 : S2048x72.Slices ![0, 15] S2048x3
  slices_S2048x72_o0_18_S2048x3 : S2048x72.Slices ![0, 18] S2048x3
  slices_S2048x72_o0_21_S2048x3 : S2048x72.Slices ![0, 21] S2048x3
  slices_S2048x72_o0_24_S2048x3 : S2048x72.Slices ![0, 24] S2048x3
  slices_S2048x72_o0_27_S2048x3 : S2048x72.Slices ![0, 27] S2048x3
  slices_S2048x72_o0_30_S2048x3 : S2048x72.Slices ![0, 30] S2048x3
  slices_S2048x72_o0_33_S2048x3 : S2048x72.Slices ![0, 33] S2048x3
  slices_S2048x72_o0_36_S2048x3 : S2048x72.Slices ![0, 36] S2048x3
  slices_S2048x72_o0_39_S2048x3 : S2048x72.Slices ![0, 39] S2048x3
  slices_S2048x72_o0_42_S2048x3 : S2048x72.Slices ![0, 42] S2048x3
  slices_S2048x72_o0_45_S2048x3 : S2048x72.Slices ![0, 45] S2048x3
  slices_S2048x72_o0_48_S2048x3 : S2048x72.Slices ![0, 48] S2048x3
  slices_S2048x72_o0_51_S2048x3 : S2048x72.Slices ![0, 51] S2048x3
  slices_S2048x72_o0_54_S2048x3 : S2048x72.Slices ![0, 54] S2048x3
  slices_S2048x72_o0_57_S2048x3 : S2048x72.Slices ![0, 57] S2048x3
  slices_S2048x72_o0_60_S2048x3 : S2048x72.Slices ![0, 60] S2048x3
  slices_S2048x72_o0_63_S2048x3 : S2048x72.Slices ![0, 63] S2048x3
  slices_S2048x72_o0_66_S2048x3 : S2048x72.Slices ![0, 66] S2048x3
  slices_S2048x72_o0_69_S2048x3 : S2048x72.Slices ![0, 69] S2048x3
  broadcasts_S1x64_S2048x64 : S1x64.Broadcasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  dot_S2048x3_S3x64_S2048x64_1_0_0_1_n_n_wf : DotDims.WF S2048x3 S3x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S8x16384x3.size a
  hwx0_0 : ∀ i : grid0.Coords, EltTy.bits .f32 = 32 ∨ (Rect.block (s := S8x16384x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x27.size a ≤ S8x16384x27.size a
  hwx0_1 : ∀ i : grid0.Coords, EltTy.bits .f32 = 32 ∨ (Rect.block (s := S8x16384x27) S1x2048x27.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x72.size a ≤ S16384x72.size a
  hwx0_2 : ∀ i : grid0.Coords, EltTy.bits .f32 = 32 ∨ (Rect.block (s := S16384x72) S2048x72.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x72.size a ≤ S16384x72.size a
  hwx0_3 : ∀ i : grid0.Coords, EltTy.bits .f32 = 32 ∨ (Rect.block (s := S16384x72) S2048x72.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x72.size a ≤ S16384x72.size a
  hwx0_4 : ∀ i : grid0.Coords, EltTy.bits .f32 = 32 ∨ (Rect.block (s := S16384x72) S2048x72.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x64.size a ≤ S3x64.size a
  hwx0_5 : ∀ i : grid0.Coords, EltTy.bits .f32 = 32 ∨ (Rect.block (s := S3x64) S3x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x64.size a ≤ S8x16384x64.size a
  hwx0_7 : ∀ i : grid0.Coords, EltTy.bits .f32 = 32 ∨ (Rect.block (s := S8x16384x64) S1x2048x64.size (cc0_transform_7 i) (hinb0_7 i)).WholeWords (EltTy.packing .f32)

variable [Facts₀]

def dot_S2048x3_S3x64_S2048x64_1_0_0_1_n_n : DotDims S2048x3 S3x64 S2048x64 where
  lhsContracting := [1]
  rhsContracting := [0]
  lhsNonContracting := [0]
  rhsNonContracting := [1]
  lhsBatch := []
  rhsBatch := []
  wf := dot_S2048x3_S3x64_S2048x64_1_0_0_1_n_n_wf

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x27.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x72.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x72.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2048x72.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S3x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x2048x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x16384x3 : Shape := ⟨3, ![8, 16384, 3]⟩
abbrev S8x16384x3x3x3 : Shape := ⟨5, ![8, 16384, 3, 3, 3]⟩
abbrev S16384x24 : Shape := ⟨2, ![16384, 24]⟩
abbrev S64x3 : Shape := ⟨2, ![64, 3]⟩
abbrev S64 : Shape := ⟨1, ![64]⟩
abbrev S8x16384x24x3x3 : Shape := ⟨5, ![8, 16384, 24, 3, 3]⟩
abbrev S8x16384x24x1x3 : Shape := ⟨5, ![8, 16384, 24, 1, 3]⟩
abbrev S8x16384x24x3 : Shape := ⟨4, ![8, 16384, 24, 3]⟩
abbrev S1x16384x24x1 : Shape := ⟨4, ![1, 16384, 24, 1]⟩
abbrev S8x16384x1x3 : Shape := ⟨4, ![8, 16384, 1, 3]⟩
abbrev S8x16384x24x64 : Shape := ⟨4, ![8, 16384, 24, 64]⟩
abbrev S1x1x1x64 : Shape := ⟨4, ![1, 1, 1, 64]⟩
abbrev S_ : Shape := ⟨0, ![]⟩
abbrev S8x16384x64 : Shape := ⟨3, ![8, 16384, 64]⟩

abbrev nBuf : Space → Nat
  | .hbm => 38
  | .vmem => 0
  | .smem => 0
  | _ => 0

abbrev bufTy : (tb : Table) → Fin (tcTables nBuf tb) → BufTy
  | .hbm, ⟨0, _⟩ => ⟨S8x16384x3, .f32⟩
  | .hbm, ⟨1, _⟩ => ⟨S8x16384x3, .i32⟩
  | .hbm, ⟨2, _⟩ => ⟨S8x16384x3x3x3, .f32⟩
  | .hbm, ⟨3, _⟩ => ⟨S16384x24, .f32⟩
  | .hbm, ⟨4, _⟩ => ⟨S16384x24, .f32⟩
  | .hbm, ⟨5, _⟩ => ⟨S16384x24, .f32⟩
  | .hbm, ⟨6, _⟩ => ⟨S64x3, .f32⟩
  | .hbm, ⟨7, _⟩ => ⟨S64, .f32⟩
  | .hbm, ⟨8, _⟩ => ⟨S8x16384x24x3x3, .f32⟩
  | .hbm, ⟨9, _⟩ => ⟨S8x16384x24x1x3, .f32⟩
  | .hbm, ⟨10, _⟩ => ⟨S8x16384x24x3, .f32⟩
  | .hbm, ⟨11, _⟩ => ⟨S8x16384x24x1x3, .f32⟩
  | .hbm, ⟨12, _⟩ => ⟨S8x16384x24x3, .f32⟩
  | .hbm, ⟨13, _⟩ => ⟨S8x16384x24x1x3, .f32⟩
  | .hbm, ⟨14, _⟩ => ⟨S8x16384x24x3, .f32⟩
  | .hbm, ⟨15, _⟩ => ⟨S1x16384x24x1, .f32⟩
  | .hbm, ⟨16, _⟩ => ⟨S1x16384x24x1, .f32⟩
  | .hbm, ⟨17, _⟩ => ⟨S1x16384x24x1, .f32⟩
  | .hbm, ⟨18, _⟩ => ⟨S8x16384x24x3, .f32⟩
  | .hbm, ⟨19, _⟩ => ⟨S8x16384x24x3, .f32⟩
  | .hbm, ⟨20, _⟩ => ⟨S8x16384x24x3, .f32⟩
  | .hbm, ⟨21, _⟩ => ⟨S8x16384x24x3, .f32⟩
  | .hbm, ⟨22, _⟩ => ⟨S8x16384x24x3, .f32⟩
  | .hbm, ⟨23, _⟩ => ⟨S8x16384x24x3, .f32⟩
  | .hbm, ⟨24, _⟩ => ⟨S8x16384x24x3, .f32⟩
  | .hbm, ⟨25, _⟩ => ⟨S8x16384x24x3, .f32⟩
  | .hbm, ⟨26, _⟩ => ⟨S8x16384x1x3, .f32⟩
  | .hbm, ⟨27, _⟩ => ⟨S8x16384x24x3, .f32⟩
  | .hbm, ⟨28, _⟩ => ⟨S8x16384x24x3, .f32⟩
  | .hbm, ⟨29, _⟩ => ⟨S8x16384x24x64, .f32⟩
  | .hbm, ⟨30, _⟩ => ⟨S1x1x1x64, .f32⟩
  | .hbm, ⟨31, _⟩ => ⟨S8x16384x24x64, .f32⟩
  | .hbm, ⟨32, _⟩ => ⟨S8x16384x24x64, .f32⟩
  | .hbm, ⟨33, _⟩ => ⟨S_, .f32⟩
  | .hbm, ⟨34, _⟩ => ⟨S8x16384x24x64, .f32⟩
  | .hbm, ⟨35, _⟩ => ⟨S8x16384x24x64, .f32⟩
  | .hbm, ⟨36, _⟩ => ⟨S_, .f32⟩
  | .hbm, ⟨37, _⟩ => ⟨S8x16384x64, .f32⟩
  | _, _ => ⟨S8x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_cst : Ref sig .tc := ⟨.hbm, 33, rfl⟩
abbrev main_call0_v0 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  concatenates_S8x16384x3x3x3_S8x16384x3x3x3_S8x16384x3x3x3_S8x16384x3x3x3_S8x16384x3x3x3_S8x16384x3x3x3_S8x16384x3x3x3_S8x16384x3x3x3_S8x16384x24x3x3_d2 : Shape.Concatenates [S8x16384x3x3x3, S8x16384x3x3x3, S8x16384x3x3x3, S8x16384x3x3x3, S8x16384x3x3x3, S8x16384x3x3x3, S8x16384x3x3x3, S8x16384x3x3x3] S8x16384x24x3x3 2
  slices_S8x16384x24x3x3_S8x16384x24x1x3_0_0_0_0_0 : S8x16384x24x3x3.Slices ![0, 0, 0, 0, 0] S8x16384x24x1x3
  shapeCasts_S8x16384x24x1x3_S8x16384x24x3 : S8x16384x24x1x3.ShapeCasts S8x16384x24x3
  slices_S8x16384x24x3x3_S8x16384x24x1x3_0_0_0_1_0 : S8x16384x24x3x3.Slices ![0, 0, 0, 1, 0] S8x16384x24x1x3
  slices_S8x16384x24x3x3_S8x16384x24x1x3_0_0_0_2_0 : S8x16384x24x3x3.Slices ![0, 0, 0, 2, 0] S8x16384x24x1x3
  bcast_S16384x24_S1x16384x24x1_1_2 : S16384x24.BroadcastsInDim S1x16384x24x1 (![1, 2] : Fin 2 → Fin S1x16384x24x1.rank)
  bcast_S1x16384x24x1_S8x16384x24x3_0_1_2_3 : S1x16384x24x1.BroadcastsInDim S8x16384x24x3 (![0, 1, 2, 3] : Fin 4 → Fin S8x16384x24x3.rank)
  bcast_S8x16384x3_S8x16384x1x3_0_1_3 : S8x16384x3.BroadcastsInDim S8x16384x1x3 (![0, 1, 3] : Fin 3 → Fin S8x16384x1x3.rank)
  bcast_S8x16384x1x3_S8x16384x24x3_0_1_2_3 : S8x16384x1x3.BroadcastsInDim S8x16384x24x3 (![0, 1, 2, 3] : Fin 4 → Fin S8x16384x24x3.rank)
  bcast_S64_S1x1x1x64_3 : S64.BroadcastsInDim S1x1x1x64 (![3] : Fin 1 → Fin S1x1x1x64.rank)
  bcast_S1x1x1x64_S8x16384x24x64_0_1_2_3 : S1x1x1x64.BroadcastsInDim S8x16384x24x64 (![0, 1, 2, 3] : Fin 4 → Fin S8x16384x24x64.rank)
  bcast_S_S8x16384x24x64 : S_.BroadcastsInDim S8x16384x24x64 (![] : Fin 0 → Fin S8x16384x24x64.rank)
  reducesTo_S8x16384x24x64_S8x16384x64_d2 : S8x16384x24x64.ReducesTo [2] S8x16384x64
  h_S_ : 0 < S_.numel
  dot_S8x16384x24x3_S64x3_S8x16384x24x64_3_1_012_0_n_n_wf : DotDims.WF S8x16384x24x3 S64x3 S8x16384x24x64 [3] [1] [0, 1, 2] [0] [] []

variable [Facts₀]

def dot_S8x16384x24x3_S64x3_S8x16384x24x64_3_1_012_0_n_n : DotDims S8x16384x24x3 S64x3 S8x16384x24x64 where
  lhsContracting := [3]
  rhsContracting := [1]
  lhsNonContracting := [0, 1, 2]
  rhsNonContracting := [0]
  lhsBatch := []
  rhsBatch := []
  wf := dot_S8x16384x24x3_S64x3_S8x16384x24x64_3_1_012_0_n_n_wf

class Facts : Prop extends Facts₀ where

variable [Facts]
-- ==== Proof.LibRunningMax.lean ====
/-
  A running maximum over `Fin (n + 1)`, and the law that lets a shared bias and a clamp at zero be taken out of it.

  `runMax n x` is `max (… (max (x 0) (x 1)) …) (x n)`, the left-nested maximum a loop that keeps a running
  maximum computes, seeded with the first entry. It is the least upper bound of the entries (`le_runMax`,
  `runMax_le`), hence their `Finset.sup'` (`runMax_eq_sup'`).

  On the extended reals `y ↦ max (y + b) 0` is monotone and commutes with `max` (adding a fixed `b` on the right
  is monotone at the infinities as well), so it commutes with a finite supremum over a nonempty set, and the
  supremum from `⊥` of the clamped, biased entries is the clamp of the biased running maximum
  (`fold_max_clamp_bias`): max over s of max (x s + b) 0 = max ((max over s of x s) + b) 0. No finiteness is used.
-/
import Mathlib.Data.EReal.Operations
import Mathlib.Data.Finset.Lattice.Fold
import Mathlib.Data.Fintype.Basic
import Mathlib.Order.Fin.Basic

namespace RunningMax

section Order
variable {α : Type*} [LinearOrder α]

/-- The left-nested maximum of `x 0, …, x n`. -/
def runMax : (n : ℕ) → (Fin (n + 1) → α) → α
  | 0, x => x 0
  | n + 1, x => max (runMax n fun i => x i.castSucc) (x (Fin.last (n + 1)))

theorem runMax_zero (x : Fin 1 → α) : runMax 0 x = x 0 := rfl

theorem runMax_succ (n : ℕ) (x : Fin (n + 2) → α) :
    runMax (n + 1) x = max (runMax n fun i => x i.castSucc) (x (Fin.last (n + 1))) := rfl

/-- Every entry is below the running maximum. -/
theorem le_runMax : ∀ (n : ℕ) (x : Fin (n + 1) → α) (i : Fin (n + 1)), x i ≤ runMax n x
  | 0, x, i => by
    have hi : i = 0 := Fin.ext (by have := i.isLt; show i.val = 0; omega)
    rw [runMax_zero, hi]
  | n + 1, x, i => by
    rw [runMax_succ]
    refine Fin.lastCases ?_ (fun j => ?_) i
    · exact le_max_right _ _
    · exact (le_runMax n (fun i => x i.castSucc) j).trans (le_max_left _ _)

/-- The running maximum is below every upper bound of the entries. -/
theorem runMax_le : ∀ (n : ℕ) (x : Fin (n + 1) → α) (z : α), (∀ i, x i ≤ z) → runMax n x ≤ z
  | 0, x, z, h => by rw [runMax_zero]; exact h 0
  | n + 1, x, z, h => by
    rw [runMax_succ]
    exact max_le (runMax_le n _ z fun i => h i.castSucc) (h _)

/-- The running maximum is the supremum of the entries. -/
theorem runMax_eq_sup' (n : ℕ) (x : Fin (n + 1) → α) :
    runMax n x = Finset.univ.sup' Finset.univ_nonempty x :=
  le_antisymm (runMax_le n x _ fun i => Finset.le_sup' x (Finset.mem_univ i))
    (Finset.sup'_le _ _ fun i _ => le_runMax n x i)

end Order

/-- On the extended reals, adding a fixed bias and clamping at zero commutes with `max`. -/
theorem clamp_bias_max (b x y : EReal) : max (max x y + b) 0 = max (max (x + b) 0) (max (y + b) 0) := by
  rw [← max_add_add_right, max_max_max_comm, max_self]

/-- The maximum from `⊥` over `s` of `max (x s + b) 0` is `max ((running maximum of x) + b) 0`. -/
theorem fold_max_clamp_bias (n : ℕ) (x : Fin (n + 1) → EReal) (b : EReal) :
    (Finset.univ : Finset (Fin (n + 1))).fold max ⊥ (fun s => max (x s + b) 0) = max (runMax n x + b) 0 := by
  have h1 : (Finset.univ : Finset (Fin (n + 1))).fold max ⊥ (fun s => max (x s + b) 0)
      = Finset.univ.sup' Finset.univ_nonempty (fun s => max (x s + b) 0) :=
    (Finset.sup'_eq_sup Finset.univ_nonempty _).symm
  rw [h1, runMax_eq_sup']
  exact (Finset.apply_sup'_eq_sup'_comp Finset.univ_nonempty (fun y => max (y + b) 0) (clamp_bias_max b)).symm

end RunningMax
-- ==== Proof.Spec.lean ====
/-
  The function both programs compute, index by index, over the extended reals.

  For a mesh `m`, a face `f`, a sample `s` (of 24) and a coordinate `c` (of 3), the sampled neighbour is
  `s mod 3` (the neighbour list repeated eight times), the surface point is the barycentric combination
  `α[f,s]·corner₀ + β[f,s]·corner₁ + γ[f,s]·corner₂` of that neighbour's three corners, and the direction is the
  point minus the face's centre (`dir`). A sample's response to kernel row `k` is the dot product of its direction
  with `W[k,·]` (`feat`). The result at `(m, f, k)` is `max ((running maximum over s of feat) + b[k]) 0` (`out`).
-/
import Idealize.ShloMosaic.PureOps.Ideal
import Idealize.ShloMosaic.Lib.ValueIdx
import proofs.«178818_j79757542686884_2_alg».proof.Proof.LibRunningMax

noncomputable section

open scoped BigOperators

namespace Cert.Spec

open Idealize.ShloMosaic Idealize.ShloMosaic.ValueIdx RunningMax

abbrev SCen : Shape := ⟨3, ![8, 16384, 3]⟩
abbrev SNc : Shape := ⟨5, ![8, 16384, 3, 3, 3]⟩
abbrev SWt : Shape := ⟨2, ![16384, 24]⟩
abbrev SW : Shape := ⟨2, ![64, 3]⟩
abbrev SB : Shape := ⟨1, ![64]⟩
abbrev SOut : Shape := ⟨3, ![8, 16384, 64]⟩

/-- The neighbour a sample reads: the three neighbours repeated eight times. -/
def nb (s : Fin 24) : Fin 3 := ⟨s.val % 3, Nat.mod_lt _ (by decide)⟩

theorem nb_val (s : Fin 24) : (nb s).val = s.val % 3 := rfl

variable (cen : SCen.Idx → EReal) (nc : SNc.Idx → EReal) (al be ga : SWt.Idx → EReal) (W : SW.Idx → EReal)
  (b : SB.Idx → EReal)

/-- Coordinate `c` of the direction from face `f`'s centre to sample `s`'s surface point, in mesh `m`. -/
def dir (m : Fin 8) (f : Fin 16384) (s : Fin 24) (c : Fin 3) : EReal :=
  al (ix2 f s) * nc (ix5 m f (nb s) (0 : Fin 3) c) + be (ix2 f s) * nc (ix5 m f (nb s) (1 : Fin 3) c)
    + ga (ix2 f s) * nc (ix5 m f (nb s) (2 : Fin 3) c) - cen (ix3 m f c)

/-- Sample `s`'s response to kernel row `k`: its direction dotted with `W[k, ·]`. -/
def feat (m : Fin 8) (f : Fin 16384) (s : Fin 24) (k : Fin 64) : EReal :=
  ∑ c : Fin 3, dir cen nc al be ga m f s c * W (ix2 k c)

/-- The result at `(m, f, k)`. -/
def out (m : Fin 8) (f : Fin 16384) (k : Fin 64) : EReal :=
  max (runMax 23 (fun s => feat cen nc al be ga W m f s k) + b (ix1 k)) 0

/-- The result array. -/
def G : SOut.Idx → EReal := fun i => out cen nc al be ga W b (i 0) (i 1) (i 2)

theorem G_apply (m : Fin 8) (f : Fin 16384) (k : Fin 64) :
    G cen nc al be ga W b (ix3 m f k) = out cen nc al be ga W b m f k := rfl

end Cert.Spec

end
-- ==== Proof.Body.lean ====
/-
  What one grid point's body leaves in the output block, index by index, as a function of the point's input blocks.

  The body lays the nine corner slices of the `[1, 2048, 27]` neighbour block (neighbour e', corner e: columns
  `9 e' + 3 e + c`) side by side, 24 triples wide, so that column `3 s + c` of the laid-out corner-e array holds
  neighbour `s mod 3`; it lays the centre block out 24 times the same way; it forms the direction array
  `α · corner₀ + β · corner₁ + γ · corner₂ - centre` over the `[2048, 72]` columns; for each of the 24 samples it
  multiplies the sample's three columns into the `[3, 64]` matrix, keeping a running maximum seeded with the first
  sample's product; and it adds the bias row and clamps at zero. So entry `(r, k)` of the block is
  `max ((running maximum over s of Σ_c dir r s c · wt c k) + bias k) 0` (`body_apply`).
-/
import proofs.«178818_j79757542686884_2_alg».proof.Proof.Gen.KernelIdeal.Frame
import proofs.«178818_j79757542686884_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx RunningMax

/-- One of three, by neighbour. -/
def tri {α : Type} (a b c : α) : Fin 3 → α
  | ⟨0, _⟩ => a
  | ⟨1, _⟩ => b
  | ⟨2, _⟩ => c

theorem tri_same {α : Type} (a : α) (e : Fin 3) : tri a a a e = a :=
  match e with | ⟨0, _⟩ => rfl | ⟨1, _⟩ => rfl | ⟨2, _⟩ => rfl

/-- Column `3 s + c` of a `[2048, 72]` array: sample `s`, coordinate `c`. -/
def col (s : Fin 24) (c : Fin 3) : Fin 72 := ⟨3 * s.val + c.val, by have := s.isLt; have := c.isLt; omega⟩

/-- Column `9 e' + 3 e + c` of the `[1, 2048, 27]` neighbour block: neighbour `e'`, corner `e`, coordinate `c`. -/
def ncol (e' e c : Fin 3) : Fin 27 :=
  ⟨9 * e'.val + 3 * e.val + c.val, by have := e'.isLt; have := e.isLt; have := c.isLt; omega⟩

/-! ## The pieces -/

/-- A three-column slice of the neighbour block, cast to a matrix, read at `(r, c)`. -/
theorem piece_apply (x1 : Vec Ideal S1x2048x27 .f32) (o : ℕ)
    (inb : ∀ a, (![0, 0, o] : Fin 3 → ℕ) a + S1x2048x3.size a ≤ S1x2048x27.size a)
    (hc : S1x2048x3.ShapeCasts S2048x3) (r : Fin 2048) (c : Fin 3) (q : Fin 27) (hq : q.val = o + c.val) :
    shapeCast S2048x3 (View.ld x1 (Rect.unit (s := S1x2048x27) ![0, 0, o] S1x2048x3.size inb)) hc (ix2 r c)
      = x1 (ix3 (0 : Fin 1) r q) := by
  refine (shapeCast_1ab_ab_apply (a := 2048) (b := 3) _ hc r c).trans ?_
  refine congrArg x1 (funext fun a => Fin.ext ?_)
  match a with
  | ⟨0, _⟩ => rfl
  | ⟨1, _⟩ => show 0 + 1 * r.val = r.val; omega
  | ⟨2, _⟩ => show o + 1 * c.val = q.val; omega

/-- The concatenation of 24 `[2048, 3]` pieces along the columns, read at column `3 s + c`: piece `s` at `c`. -/
theorem concat24_apply (f : Fin 24 → (S2048x3.Idx → EReal))
    (h : Shape.Concatenates ((List.ofFn fun n : Fin 24 => (⟨S2048x3, f n⟩ : (s : Shape) × (s.Idx → EReal))).map (·.1)) S2048x72 1)
    (r : Fin 2048) (s : Fin 24) (c : Fin 3) :
    concatenate S2048x72 1 (List.ofFn fun n : Fin 24 => (⟨S2048x3, f n⟩ : (s : Shape) × (s.Idx → EReal))) h (ix2 r (col s c))
      = f s (ix2 r c) := by
  have hs := s.isLt; have hc := c.isLt
  exact concatenate_ofFn_apply (t := S2048x72) (1 : Fin 2) f h rfl 3 rfl (ix2 r (col s c)) s
    (by show (3 * s.val + c.val) / 3 = s.val; omega) (ix2 r c)
    (by show c.val = (3 * s.val + c.val) % 3; omega)
    (fun b hb => match b with | ⟨0, _⟩ => rfl | ⟨1, _⟩ => absurd rfl hb)

/-- Three pieces repeated eight times: column `3 s + c` reads the piece of neighbour `s mod 3`. -/
theorem corners_apply (a b c' : S2048x3.Idx → EReal)
    (h : Shape.Concatenates (([⟨S2048x3, a⟩, ⟨S2048x3, b⟩, ⟨S2048x3, c'⟩, ⟨S2048x3, a⟩, ⟨S2048x3, b⟩, ⟨S2048x3, c'⟩,
      ⟨S2048x3, a⟩, ⟨S2048x3, b⟩, ⟨S2048x3, c'⟩, ⟨S2048x3, a⟩, ⟨S2048x3, b⟩, ⟨S2048x3, c'⟩,
      ⟨S2048x3, a⟩, ⟨S2048x3, b⟩, ⟨S2048x3, c'⟩, ⟨S2048x3, a⟩, ⟨S2048x3, b⟩, ⟨S2048x3, c'⟩,
      ⟨S2048x3, a⟩, ⟨S2048x3, b⟩, ⟨S2048x3, c'⟩, ⟨S2048x3, a⟩, ⟨S2048x3, b⟩, ⟨S2048x3, c'⟩] :
        List ((s : Shape) × (s.Idx → EReal))).map (·.1)) S2048x72 1)
    (r : Fin 2048) (s : Fin 24) (c : Fin 3) :
    concatenate S2048x72 1 [⟨S2048x3, a⟩, ⟨S2048x3, b⟩, ⟨S2048x3, c'⟩, ⟨S2048x3, a⟩, ⟨S2048x3, b⟩, ⟨S2048x3, c'⟩,
      ⟨S2048x3, a⟩, ⟨S2048x3, b⟩, ⟨S2048x3, c'⟩, ⟨S2048x3, a⟩, ⟨S2048x3, b⟩, ⟨S2048x3, c'⟩,
      ⟨S2048x3, a⟩, ⟨S2048x3, b⟩, ⟨S2048x3, c'⟩, ⟨S2048x3, a⟩, ⟨S2048x3, b⟩, ⟨S2048x3, c'⟩,
      ⟨S2048x3, a⟩, ⟨S2048x3, b⟩, ⟨S2048x3, c'⟩, ⟨S2048x3, a⟩, ⟨S2048x3, b⟩, ⟨S2048x3, c'⟩] h (ix2 r (col s c))
      = tri a b c' (Spec.nb s) (ix2 r c) :=
  concat24_apply (fun n => tri a b c' (Spec.nb n)) h r s c

/-- The product's left operand index keeps the output row. -/
theorem lhs_row (i : S2048x64.Idx) (q : dot_S2048x3_S3x64_S2048x64_1_0_0_1_n_n.contr.Idx) :
    (dot_S2048x3_S3x64_S2048x64_1_0_0_1_n_n.lhsIdx i q 0).val = (i 0).val := by
  unfold DotDims.lhsIdx
  rw [dif_neg (show ¬(0 : Fin S2048x3.rank) ∈ dot_S2048x3_S3x64_S2048x64_1_0_0_1_n_n.lhsBatch by decide),
    dif_pos (show (0 : Fin S2048x3.rank) ∈ dot_S2048x3_S3x64_S2048x64_1_0_0_1_n_n.lhsNonContracting by decide)]
  rfl

/-- The product's right operand index keeps the output column. -/
theorem rhs_col (i : S2048x64.Idx) (q : dot_S2048x3_S3x64_S2048x64_1_0_0_1_n_n.contr.Idx) :
    (dot_S2048x3_S3x64_S2048x64_1_0_0_1_n_n.rhsIdx i q 1).val = (i 1).val := by
  unfold DotDims.rhsIdx
  rw [dif_neg (show ¬(1 : Fin S3x64.rank) ∈ dot_S2048x3_S3x64_S2048x64_1_0_0_1_n_n.rhsBatch by decide),
    dif_pos (show (1 : Fin S3x64.rank) ∈ dot_S2048x3_S3x64_S2048x64_1_0_0_1_n_n.rhsNonContracting by decide)]
  rfl

/-- One sample's three columns, cut out and multiplied into the `[3, 64]` matrix, read at `(r, k)`. -/
theorem slice_matmul (o : ℕ) (h : S2048x72.Slices ![0, o] S2048x3) (D : FVec Ideal S2048x72 .f32)
    (wt : FVec Ideal S3x64 .f32) (r : Fin 2048) (k : Fin 64) :
    FloatOps.matmul dot_S2048x3_S3x64_S2048x64_1_0_0_1_n_n none (extractStridedSlice S2048x3 ![0, o] D h) wt
        (constant S2048x64 .f32 0x00000000#32) (ix2 r k)
      = ∑ c : Fin 3, D (ix2 r ⟨o + c.val, Nat.lt_of_lt_of_le (Nat.add_lt_add_left c.isLt o) (h.2 1)⟩) * wt (ix2 c k) := by
  rw [Ideal.matmul_constant_zero_apply,
    ← Equiv.sum_comp (contrEquiv1 dot_S2048x3_S3x64_S2048x64_1_0_0_1_n_n 3 rfl rfl).symm]
  refine Finset.sum_congr rfl fun c _ => ?_
  have hc := contrEquiv1_symm_val dot_S2048x3_S3x64_S2048x64_1_0_0_1_n_n 3 rfl rfl c
  have el : dot_S2048x3_S3x64_S2048x64_1_0_0_1_n_n.lhsIdx (ix2 r k)
      ((contrEquiv1 dot_S2048x3_S3x64_S2048x64_1_0_0_1_n_n 3 rfl rfl).symm c) = ix2 r c :=
    funext fun a => Fin.ext (by
      match a with
      | ⟨0, _⟩ => exact lhs_row _ _
      | ⟨1, _⟩ => exact (dot_S2048x3_S3x64_S2048x64_1_0_0_1_n_n.lhsIdx_val_of_single rfl _ _).trans hc)
  have er : dot_S2048x3_S3x64_S2048x64_1_0_0_1_n_n.rhsIdx (ix2 r k)
      ((contrEquiv1 dot_S2048x3_S3x64_S2048x64_1_0_0_1_n_n 3 rfl rfl).symm c) = ix2 c k :=
    funext fun a => Fin.ext (by
      match a with
      | ⟨0, _⟩ => exact (dot_S2048x3_S3x64_S2048x64_1_0_0_1_n_n.rhsIdx_val_of_single rfl _ _).trans hc
      | ⟨1, _⟩ => exact rhs_col _ _)
  rw [el, er, slice2_axis1_eq]

/-! ## The direction array -/

/-- The direction array at column `3 s + c`, over any centre and corner pieces. -/
theorem dirs_apply (v1 v7 v9 v11 v13 v15 v17 v19 v21 v23 : S2048x3.Idx → EReal) (x2 x3 x4 : S2048x72.Idx → EReal)
    (r : Fin 2048) (s : Fin 24) (c : Fin 3) :
    k0_pay14 (F := Ideal) v1 v7 v9 v11 v13 v15 v17 v19 v21 v23 x2 x3 x4 (ix2 r (col s c))
      = x2 (ix2 r (col s c)) * tri v7 v13 v19 (Spec.nb s) (ix2 r c)
        + x3 (ix2 r (col s c)) * tri v9 v15 v21 (Spec.nb s) (ix2 r c)
        + x4 (ix2 r (col s c)) * tri v11 v17 v23 (Spec.nb s) (ix2 r c) - v1 (ix2 r c) := by
  unfold k0_pay14
  simp only [subf_apply, addf_apply, mulf_apply, shapeCast_self, corners_apply, tri_same]

/-! ## The running maximum, the bias and the clamp -/

/-- From the direction array `D`, the matrix `v3` and the bias row `v5`: entry `(r, k)` of the stored block. -/
theorem core_apply (v1 v7 v9 v11 v13 v15 v17 v19 v21 v23 : S2048x3.Idx → EReal) (v3 : S3x64.Idx → EReal)
    (v5 : S1x64.Idx → EReal) (x2 x3 x4 : S2048x72.Idx → EReal) (u : Fin 1) (r : Fin 2048) (k : Fin 64) :
    k0_pay1 (F := Ideal)
        (k0_pay17 v3 v5 (k0_pay14 v1 v7 v9 v11 v13 v15 v17 v19 v21 v23 x2 x3 x4)
          (k0_pay15 v1 v3 v7 v9 v11 v13 v15 v17 v19 v21 v23 x2 x3 x4)
          (k0_pay16 v1 v3 v7 v9 v11 v13 v15 v17 v19 v21 v23 x2 x3 x4))
        (Scalar.ofBits .f32 0x00000000#32) (ix3 u r k)
      = max (runMax 23 (fun s => ∑ c : Fin 3,
          k0_pay14 (F := Ideal) v1 v7 v9 v11 v13 v15 v17 v19 v21 v23 x2 x3 x4 (ix2 r (col s c)) * v3 (ix2 c k))
        + v5 (ix2 (0 : Fin 1) k)) 0 := by
  unfold k0_pay1
  refine (shapeCast_ab_1ab_apply (a := 2048) (b := 64) _ _ u r k).trans ?_
  show max (k0_pay17 (F := Ideal) v3 v5 (k0_pay14 v1 v7 v9 v11 v13 v15 v17 v19 v21 v23 x2 x3 x4)
          (k0_pay15 v1 v3 v7 v9 v11 v13 v15 v17 v19 v21 v23 x2 x3 x4)
          (k0_pay16 v1 v3 v7 v9 v11 v13 v15 v17 v19 v21 v23 x2 x3 x4) (ix2 r k)) (Ideal.ofBits .f32 0x00000000#32) = _
  rw [Ideal.ofBits_zero_f32]
  refine congrArg (fun y => max y 0) ?_
  unfold k0_pay17 k0_pay15 k0_pay16
  simp only [addf_apply, maximumf_apply, matmul, slice_matmul, broadcastTo_1b_ab_apply]
  rfl

/-! ## The block as a function of the input blocks -/

section Blocks
variable (x0 : S1x2048x3.Idx → EReal) (x1 : S1x2048x27.Idx → EReal) (x2 x3 x4 : S2048x72.Idx → EReal)
  (x5 : S3x64.Idx → EReal) (x6 : S1x64.Idx → EReal)

/-- Corner 0 of neighbour `e'`: columns `9 e'` to `9 e' + 2` of the neighbour block. -/
theorem corner0_apply (e' : Fin 3) (r : Fin 2048) (c : Fin 3) :
    tri (k0_pay5 (F := Ideal) (View.ld x1 r0_3)) (k0_pay8 (F := Ideal) (View.ld x1 r0_6))
        (k0_pay11 (F := Ideal) (View.ld x1 r0_9)) e' (ix2 r c)
      = x1 (ix3 (0 : Fin 1) r (ncol e' 0 c)) :=
  match e' with
  | ⟨0, _⟩ => piece_apply x1 0 _ _ r c _ (by show 9 * 0 + 3 * 0 + c.val = 0 + c.val; omega)
  | ⟨1, _⟩ => piece_apply x1 9 _ _ r c _ (by show 9 * 1 + 3 * 0 + c.val = 9 + c.val; omega)
  | ⟨2, _⟩ => piece_apply x1 18 _ _ r c _ (by show 9 * 2 + 3 * 0 + c.val = 18 + c.val; omega)

/-- Corner 1 of neighbour `e'`: columns `9 e' + 3` to `9 e' + 5`. -/
theorem corner1_apply (e' : Fin 3) (r : Fin 2048) (c : Fin 3) :
    tri (k0_pay6 (F := Ideal) (View.ld x1 r0_4)) (k0_pay9 (F := Ideal) (View.ld x1 r0_7))
        (k0_pay12 (F := Ideal) (View.ld x1 r0_10)) e' (ix2 r c)
      = x1 (ix3 (0 : Fin 1) r (ncol e' 1 c)) :=
  match e' with
  | ⟨0, _⟩ => piece_apply x1 3 _ _ r c _ (by show 9 * 0 + 3 * 1 + c.val = 3 + c.val; omega)
  | ⟨1, _⟩ => piece_apply x1 12 _ _ r c _ (by show 9 * 1 + 3 * 1 + c.val = 12 + c.val; omega)
  | ⟨2, _⟩ => piece_apply x1 21 _ _ r c _ (by show 9 * 2 + 3 * 1 + c.val = 21 + c.val; omega)

/-- Corner 2 of neighbour `e'`: columns `9 e' + 6` to `9 e' + 8`. -/
theorem corner2_apply (e' : Fin 3) (r : Fin 2048) (c : Fin 3) :
    tri (k0_pay7 (F := Ideal) (View.ld x1 r0_5)) (k0_pay10 (F := Ideal) (View.ld x1 r0_8))
        (k0_pay13 (F := Ideal) (View.ld x1 r0_11)) e' (ix2 r c)
      = x1 (ix3 (0 : Fin 1) r (ncol e' 2 c)) :=
  match e' with
  | ⟨0, _⟩ => piece_apply x1 6 _ _ r c _ (by show 9 * 0 + 3 * 2 + c.val = 6 + c.val; omega)
  | ⟨1, _⟩ => piece_apply x1 15 _ _ r c _ (by show 9 * 1 + 3 * 2 + c.val = 15 + c.val; omega)
  | ⟨2, _⟩ => piece_apply x1 24 _ _ r c _ (by show 9 * 2 + 3 * 2 + c.val = 24 + c.val; omega)

/-- Row `r`'s direction for sample `s`, coordinate `c`, from the blocks: the weights at column `3 s + c`, the corners of
    neighbour `s mod 3`, the centre. -/
def bdir (r : Fin 2048) (s : Fin 24) (c : Fin 3) : EReal :=
  x2 (ix2 r (col s c)) * x1 (ix3 (0 : Fin 1) r (ncol (Spec.nb s) 0 c))
    + x3 (ix2 r (col s c)) * x1 (ix3 (0 : Fin 1) r (ncol (Spec.nb s) 1 c))
    + x4 (ix2 r (col s c)) * x1 (ix3 (0 : Fin 1) r (ncol (Spec.nb s) 2 c)) - x0 (ix3 (0 : Fin 1) r c)

theorem hz3 : (![0, 0, 0] : Fin 3 → Nat) = fun _ => 0 := funext fun a => by fin_cases a <;> rfl
theorem hz2 : (![0, 0] : Fin 2 → Nat) = fun _ => 0 := funext fun a => by fin_cases a <;> rfl

/-- Entry `(r, k)` of the block the body stores. -/
theorem body_apply (u : Fin 1) (r : Fin 2048) (k : Fin 64) :
    out0_7 (F := Ideal) x0 x1 x2 x3 x4 x5 x6 (ix3 u r k)
      = max (runMax 23 (fun s => ∑ c : Fin 3, bdir x0 x1 x2 x3 x4 r s c * x5 (ix2 c k)) + x6 (ix2 (0 : Fin 1) k)) 0 := by
  unfold out0_7
  rw [View.canon_unit_zero hz3]
  simp only [View.ld_unit_zero (S := S1x2048x3) hz3, View.ld_unit_zero (S := S3x64) hz2,
    View.ld_unit_zero (S := S1x64) hz2, View.ld_unit_zero (S := S2048x72) hz2]
  refine (core_apply _ _ _ _ _ _ _ _ _ _ _ _ _ _ _ u r k).trans ?_
  have e3 : k0_pay3 (F := Ideal) x5 = x5 := shapeCast_self _ _
  have e4 : k0_pay4 (F := Ideal) x6 = x6 := shapeCast_self _ _
  rw [e3, e4]
  refine congrArg (fun y => max (y + x6 (ix2 (0 : Fin 1) k)) 0) (congrArg (runMax 23) (funext fun s => ?_))
  refine Finset.sum_congr rfl fun c _ => ?_
  rw [dirs_apply, corner0_apply, corner1_apply, corner2_apply]
  rw [show k0_pay2 (F := Ideal) x0 (ix2 r c) = x0 (ix3 (0 : Fin 1) r c) from
    shapeCast_1ab_ab_apply (a := 2048) (b := 3) x0 _ r c]
  rfl

end Blocks

end Cert.KernelIdeal.Body

end
-- ==== Proof.Entry.lean ====
/-
  The arrays the region's windows stage, as the host operations before the region leave them, read at an index in
  terms of the program's arguments: the corners flattened to 27 columns (`(e', e, c) ↦ 9 e' + 3 e + c`), the kernel
  matrix transposed, the bias as one row, and each weight array with every entry repeated three times along the
  columns (column `3 s + c` holds the weight of sample `s`).
-/
import proofs.«178818_j79757542686884_2_alg».proof.Proof.Gen.KernelIdeal.Frame
import proofs.«178818_j79757542686884_2_alg».proof.Proof.Body
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Entry

open Cert.KernelIdeal Cert.KernelIdeal.Gen Idealize.ShloMosaic Idealize.ShloMosaic.TcCoe Idealize.SL.Sem
  Idealize.ShloMosaic.ValueIdx Idealize.ShloMosaic.StableHlo Cert.KernelIdeal.Body

variable (m : (ℓ : Loc nD τ sig) → Buf (Elt Ideal) ℓ) (c : Dev nD)

/-- The flattened corners are the shape cast of the corner argument. -/
theorem V_v0 : (V m c main_v0 : S8x16384x27.Idx → EReal)
    = shapeCast S8x16384x27 (m ((c : Thread nD τ).loc main_arg2)) shapeCasts_S8x16384x3x3x3_S8x16384x27 := by
  dsimp only [Gen.V, Gen.hostOps0]; after_results <;> rfl

/-- The staged matrix is the transpose of the kernel-matrix argument. -/
theorem V_v1 : (V m c main_v1 : S3x64.Idx → EReal)
    = transpose S3x64 [1, 0] (m ((c : Thread nD τ).loc main_arg6)) transposes_S64x3_S3x64_1_0 := by
  dsimp only [Gen.V, Gen.hostOps0]; after_results <;> rfl

/-- The staged bias row is the shape cast of the bias argument. -/
theorem V_v2 : (V m c main_v2 : S1x64.Idx → EReal)
    = shapeCast S1x64 (m ((c : Thread nD τ).loc main_arg7)) shapeCasts_S64_S1x64 := by
  dsimp only [Gen.V, Gen.hostOps0]; after_results <;> rfl

/-- A widened weight array: the weight argument broadcast along a new axis of three, then flattened. -/
theorem V_v4 : (V m c main_v4 : S16384x72.Idx → EReal)
    = shapeCast S16384x72 (broadcastInDim S16384x24x3 ![0, 1] bcast_S16384x24_S16384x24x3_0_1
        (m ((c : Thread nD τ).loc main_arg3))) shapeCasts_S16384x24x3_S16384x72 := by
  dsimp only [Gen.V, Gen.hostOps0]; after_results <;> rfl

theorem V_v6 : (V m c main_v6 : S16384x72.Idx → EReal)
    = shapeCast S16384x72 (broadcastInDim S16384x24x3 ![0, 1] bcast_S16384x24_S16384x24x3_0_1
        (m ((c : Thread nD τ).loc main_arg4))) shapeCasts_S16384x24x3_S16384x72 := by
  dsimp only [Gen.V, Gen.hostOps0]; after_results <;> rfl

theorem V_v8 : (V m c main_v8 : S16384x72.Idx → EReal)
    = shapeCast S16384x72 (broadcastInDim S16384x24x3 ![0, 1] bcast_S16384x24_S16384x24x3_0_1
        (m ((c : Thread nD τ).loc main_arg5))) shapeCasts_S16384x24x3_S16384x72 := by
  dsimp only [Gen.V, Gen.hostOps0]; after_results <;> rfl

/-- Column `9 e' + 3 e + c` of the flattened corners is corner `e`, coordinate `c` of neighbour `e'`. -/
theorem flat_apply (x : S8x16384x3x3x3.Idx → EReal) (h : S8x16384x3x3x3.ShapeCasts S8x16384x27)
    (mm : Fin 8) (ff : Fin 16384) (e' e cc : Fin 3) :
    shapeCast S8x16384x27 x h (ix3 mm ff (ncol e' e cc)) = x (ix5 mm ff e' e cc) := by
  refine shapeCast_apply x h _ _ ?_
  rw [Shape.rowMajor_val_five, Shape.rowMajor_val_three]
  have h1 := mm.isLt; have h2 := ff.isLt; have h3 := e'.isLt; have h4 := e.isLt; have h5 := cc.isLt
  show (((mm.val * 16384 + ff.val) * 3 + e'.val) * 3 + e.val) * 3 + cc.val
    = (mm.val * 16384 + ff.val) * 27 + (9 * e'.val + 3 * e.val + cc.val)
  omega

/-- Column `3 s + c` of a widened weight array is the weight of sample `s`. -/
theorem wide_apply (x : S16384x24.Idx → EReal) (hb : S16384x24.BroadcastsInDim S16384x24x3 ![0, 1])
    (h : S16384x24x3.ShapeCasts S16384x72) (ff : Fin 16384) (s : Fin 24) (cc : Fin 3) :
    shapeCast S16384x72 (broadcastInDim S16384x24x3 ![0, 1] hb x) h (ix2 ff (col s cc)) = x (ix2 ff s) := by
  refine (shapeCast_apply _ h _ (ix3 ff s cc) ?_).trans ?_
  · rw [Shape.rowMajor_val_three, Shape.rowMajor_val_two]
    have h2 := ff.isLt; have h3 := s.isLt; have h5 := cc.isLt
    show (ff.val * 24 + s.val) * 3 + cc.val = ff.val * 72 + (3 * s.val + cc.val)
    omega
  · exact broadcastInDim_apply _ hb x _ _ (fun a => match a with
      | ⟨0, _⟩ => by show ff.val = if (16384 : Nat) = 1 then 0 else ff.val; rw [if_neg (by decide)]
      | ⟨1, _⟩ => by show s.val = if (24 : Nat) = 1 then 0 else s.val; rw [if_neg (by decide)])

end Cert.KernelIdeal.Entry

end
-- ==== Proof.KernelValue.lean ====
/-
  The kernel's result array is `Spec.G` of the arguments.

  Grid point `t` works on mesh `M t` and face block `Fb t` (the output window's block index at `t`): its centre and
  neighbour blocks are rows `2048 · Fb t + r` of mesh `M t`, its weight blocks the same rows of the widened weight
  arrays, the matrix and the bias row whole. With the host operations before the region read at an index
  (`Entry`), the body's block (`Body.body_apply`) at `(0, r, k)` is `Spec.out` at `(M t, 2048 · Fb t + r, k)`:
  the block of `Spec.G` the point writes back. The 64 blocks tile the array, so the array ends holding `Spec.G`.
-/
import proofs.«178818_j79757542686884_2_alg».proof.Proof.Gen.KernelIdeal.Value
import proofs.«178818_j79757542686884_2_alg».proof.Proof.Spec
import proofs.«178818_j79757542686884_2_alg».proof.Proof.Body
import proofs.«178818_j79757542686884_2_alg».proof.Proof.Entry

noncomputable section

open scoped BigOperators

namespace Cert.KernelIdeal.KernelValue

open Cert.KernelIdeal Cert.KernelIdeal.Gen Idealize.ShloMosaic Idealize.ShloMosaic.TcCoe Idealize.SL.Sem
  Idealize.ShloMosaic.ValueIdx Cert.KernelIdeal.Body Cert.KernelIdeal.Entry RunningMax
open Idealize.ShloMosaic.Pipeline (Dat)

variable (m : (ℓ : Loc nD τ sig) → Buf (Elt Ideal) ℓ) (ρ : Dev nD → PrngReg)

/-- The printed index maps, decided over the 64 grid points: the centre and neighbour windows move with the output
    window on the mesh and face-block axes, the weight windows on the face-block axis, the matrix and bias windows
    stay, and the output's block indices are a mesh below 8 and a face block below 8. -/
theorem idx_facts : ∀ t : Fin cfg0.N,
    win0_0.index t (0 : Fin 3) = win0_7.index t (0 : Fin 3) ∧ win0_0.index t (1 : Fin 3) = win0_7.index t (1 : Fin 3)
    ∧ win0_0.index t (2 : Fin 3) = 0
    ∧ win0_1.index t (0 : Fin 3) = win0_7.index t (0 : Fin 3) ∧ win0_1.index t (1 : Fin 3) = win0_7.index t (1 : Fin 3)
    ∧ win0_1.index t (2 : Fin 3) = 0
    ∧ win0_2.index t (0 : Fin 2) = win0_7.index t (1 : Fin 3) ∧ win0_2.index t (1 : Fin 2) = 0
    ∧ win0_3.index t (0 : Fin 2) = win0_7.index t (1 : Fin 3) ∧ win0_3.index t (1 : Fin 2) = 0
    ∧ win0_4.index t (0 : Fin 2) = win0_7.index t (1 : Fin 3) ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) < 8 ∧ win0_7.index t (1 : Fin 3) < 8 ∧ win0_7.index t (2 : Fin 3) = 0 :=
  (by decide +kernel : ∀ t : Fin grid0.N, _)

/-- Every (mesh, face block) pair is some point's output block. -/
theorem idx_onto : ∀ (q0 : Fin 8) (q1 : Fin 8), ∃ t : Fin cfg0.N, win0_7.index t = ![q0.val, q1.val, 0] :=
  (by decide +kernel : ∀ (q0 : Fin 8) (q1 : Fin 8), ∃ t : Fin grid0.N, win0_7.index t = ![q0.val, q1.val, 0])

/-- The mesh point `t` works on. -/
def M (t : Fin cfg0.N) : Fin 8 := ⟨win0_7.index t (0 : Fin 3), (idx_facts t).2.2.2.2.2.2.2.2.2.2.2.2.2.2.2.2.1⟩

/-- Row `r` of point `t`'s face block, as a face. -/
def Fc (t : Fin cfg0.N) (r : Fin 2048) : Fin 16384 :=
  ⟨win0_7.index t (1 : Fin 3) * 2048 + r.val, by
    have h := (idx_facts t).2.2.2.2.2.2.2.2.2.2.2.2.2.2.2.2.2.1; have := r.isLt; omega⟩

variable (c : Dev nD)

/-- The centre block at `t`. -/
theorem blk0 (t : Fin cfg0.N) (r : Fin 2048) (cc : Fin 3) :
    iblk m c 0 t (ix3 (0 : Fin 1) r cc) = m ((c : Thread nD τ).loc main_arg0) (ix3 (M t) (Fc t r) cc) := by
  obtain ⟨e00, e01, e02, -⟩ := idx_facts t
  refine Eq.trans ?_ (congrFun (V_main_arg0 m c) _)
  show V m c main_arg0 (((cfg0.win 0).blk t).view.emb (ix3 (0 : Fin 1) r cc)) = _
  refine congrArg (V m c main_arg0) (funext fun a => Fin.ext ?_)
  match a with
  | ⟨0, _⟩ => show win0_0.index t (0 : Fin 3) * 1 + 1 * 0 = win0_7.index t (0 : Fin 3); omega
  | ⟨1, _⟩ => show win0_0.index t (1 : Fin 3) * 2048 + 1 * r.val = win0_7.index t (1 : Fin 3) * 2048 + r.val; omega
  | ⟨2, _⟩ => show win0_0.index t (2 : Fin 3) * 3 + 1 * cc.val = cc.val; omega

/-- The neighbour block at `t`, at the column of neighbour `e'`, corner `e`, coordinate `cc`. -/
theorem blk1 (t : Fin cfg0.N) (r : Fin 2048) (e' e cc : Fin 3) :
    iblk m c 1 t (ix3 (0 : Fin 1) r (ncol e' e cc))
      = m ((c : Thread nD τ).loc main_arg2) (ix5 (M t) (Fc t r) e' e cc) := by
  obtain ⟨-, -, -, e10, e11, e12, -⟩ := idx_facts t
  refine Eq.trans ?_ (flat_apply (m ((c : Thread nD τ).loc main_arg2)) shapeCasts_S8x16384x3x3x3_S8x16384x27 (M t) (Fc t r) e' e cc)
  refine Eq.trans ?_ (congrFun (V_v0 m c) _)
  show V m c main_v0 (((cfg0.win 1).blk t).view.emb (ix3 (0 : Fin 1) r (ncol e' e cc))) = _
  refine congrArg (V m c main_v0) (funext fun a => Fin.ext ?_)
  match a with
  | ⟨0, _⟩ => show win0_1.index t (0 : Fin 3) * 1 + 1 * 0 = win0_7.index t (0 : Fin 3); omega
  | ⟨1, _⟩ => show win0_1.index t (1 : Fin 3) * 2048 + 1 * r.val = win0_7.index t (1 : Fin 3) * 2048 + r.val; omega
  | ⟨2, _⟩ => show win0_1.index t (2 : Fin 3) * 27 + 1 * (ncol e' e cc).val = (ncol e' e cc).val; omega

/-- The first weight block at `t`, at the column of sample `s`, coordinate `cc`. -/
theorem blk2 (t : Fin cfg0.N) (r : Fin 2048) (s : Fin 24) (cc : Fin 3) :
    iblk m c 2 t (ix2 r (col s cc)) = m ((c : Thread nD τ).loc main_arg3) (ix2 (Fc t r) s) := by
  obtain ⟨-, -, -, -, -, -, e20, e21, -⟩ := idx_facts t
  refine Eq.trans ?_ (wide_apply (m ((c : Thread nD τ).loc main_arg3)) bcast_S16384x24_S16384x24x3_0_1 shapeCasts_S16384x24x3_S16384x72 (Fc t r) s cc)
  refine Eq.trans ?_ (congrFun (V_v4 m c) _)
  show V m c main_v4 (((cfg0.win 2).blk t).view.emb (ix2 r (col s cc))) = _
  refine congrArg (V m c main_v4) (funext fun a => Fin.ext ?_)
  match a with
  | ⟨0, _⟩ => show win0_2.index t (0 : Fin 2) * 2048 + 1 * r.val = win0_7.index t (1 : Fin 3) * 2048 + r.val; omega
  | ⟨1, _⟩ => show win0_2.index t (1 : Fin 2) * 72 + 1 * (col s cc).val = (col s cc).val; omega

/-- The second weight block. -/
theorem blk3 (t : Fin cfg0.N) (r : Fin 2048) (s : Fin 24) (cc : Fin 3) :
    iblk m c 3 t (ix2 r (col s cc)) = m ((c : Thread nD τ).loc main_arg4) (ix2 (Fc t r) s) := by
  obtain ⟨-, -, -, -, -, -, -, -, e30, e31, -⟩ := idx_facts t
  refine Eq.trans ?_ (wide_apply (m ((c : Thread nD τ).loc main_arg4)) bcast_S16384x24_S16384x24x3_0_1 shapeCasts_S16384x24x3_S16384x72 (Fc t r) s cc)
  refine Eq.trans ?_ (congrFun (V_v6 m c) _)
  show V m c main_v6 (((cfg0.win 3).blk t).view.emb (ix2 r (col s cc))) = _
  refine congrArg (V m c main_v6) (funext fun a => Fin.ext ?_)
  match a with
  | ⟨0, _⟩ => show win0_3.index t (0 : Fin 2) * 2048 + 1 * r.val = win0_7.index t (1 : Fin 3) * 2048 + r.val; omega
  | ⟨1, _⟩ => show win0_3.index t (1 : Fin 2) * 72 + 1 * (col s cc).val = (col s cc).val; omega

/-- The third weight block. -/
theorem blk4 (t : Fin cfg0.N) (r : Fin 2048) (s : Fin 24) (cc : Fin 3) :
    iblk m c 4 t (ix2 r (col s cc)) = m ((c : Thread nD τ).loc main_arg5) (ix2 (Fc t r) s) := by
  obtain ⟨-, -, -, -, -, -, -, -, -, -, e40, e41, -⟩ := idx_facts t
  refine Eq.trans ?_ (wide_apply (m ((c : Thread nD τ).loc main_arg5)) bcast_S16384x24_S16384x24x3_0_1 shapeCasts_S16384x24x3_S16384x72 (Fc t r) s cc)
  refine Eq.trans ?_ (congrFun (V_v8 m c) _)
  show V m c main_v8 (((cfg0.win 4).blk t).view.emb (ix2 r (col s cc))) = _
  refine congrArg (V m c main_v8) (funext fun a => Fin.ext ?_)
  match a with
  | ⟨0, _⟩ => show win0_4.index t (0 : Fin 2) * 2048 + 1 * r.val = win0_7.index t (1 : Fin 3) * 2048 + r.val; omega
  | ⟨1, _⟩ => show win0_4.index t (1 : Fin 2) * 72 + 1 * (col s cc).val = (col s cc).val; omega

/-- The matrix block: the kernel matrix transposed. -/
theorem blk5 (t : Fin cfg0.N) (cc : Fin 3) (k : Fin 64) :
    iblk m c 5 t (ix2 cc k) = m ((c : Thread nD τ).loc main_arg6) (ix2 k cc) := by
  obtain ⟨-, -, -, -, -, -, -, -, -, -, -, -, e50, e51, -⟩ := idx_facts t
  refine Eq.trans ?_ (transpose_ix2_apply (m ((c : Thread nD τ).loc main_arg6)) transposes_S64x3_S3x64_1_0 cc k)
  refine Eq.trans ?_ (congrFun (V_v1 m c) _)
  show V m c main_v1 (((cfg0.win 5).blk t).view.emb (ix2 cc k)) = _
  refine congrArg (V m c main_v1) (funext fun a => Fin.ext ?_)
  match a with
  | ⟨0, _⟩ => show win0_5.index t (0 : Fin 2) * 3 + 1 * cc.val = cc.val; omega
  | ⟨1, _⟩ => show win0_5.index t (1 : Fin 2) * 64 + 1 * k.val = k.val; omega

/-- The bias block: the bias as one row. -/
theorem blk6 (t : Fin cfg0.N) (k : Fin 64) :
    iblk m c 6 t (ix2 (0 : Fin 1) k) = m ((c : Thread nD τ).loc main_arg7) (ix1 k) := by
  obtain ⟨-, -, -, -, -, -, -, -, -, -, -, -, -, -, e60, e61, -⟩ := idx_facts t
  refine Eq.trans ?_ (shapeCast_a_1a_apply (m ((c : Thread nD τ).loc main_arg7)) shapeCasts_S64_S1x64 (0 : Fin 1) k)
  refine Eq.trans ?_ (congrFun (V_v2 m c) _)
  show V m c main_v2 (((cfg0.win 6).blk t).view.emb (ix2 (0 : Fin 1) k)) = _
  refine congrArg (V m c main_v2) (funext fun a => Fin.ext ?_)
  match a with
  | ⟨0, _⟩ => show win0_6.index t (0 : Fin 2) * 1 + 1 * 0 = 0; omega
  | ⟨1, _⟩ => show win0_6.index t (1 : Fin 2) * 64 + 1 * k.val = k.val; omega

/-- `Spec.G` of the argument arrays as launched. -/
abbrev Gm : S8x16384x64.Idx → EReal :=
  Spec.G (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

/-- Entry `y` of the block point `t`'s body stores is `Spec.G` at mesh `M t`, face `Fc t (y 1)`, kernel row `y 2`. -/
theorem point_eq (t : Fin cfg0.N) (y : S1x2048x64.Idx) :
    out0_7 (iblk m c 0 t) (iblk m c 1 t) (iblk m c 2 t) (iblk m c 3 t) (iblk m c 4 t) (iblk m c 5 t) (iblk m c 6 t) y
      = Gm m c (ix3 (M t) (Fc t (y 1)) (y 2)) := by
  obtain ⟨u, r, k, rfl⟩ : ∃ (u : Fin 1) (r : Fin 2048) (k : Fin 64), y = ix3 u r k := ⟨y 0, y 1, y 2, eq_ix3 y⟩
  refine (body_apply (iblk m c 0 t) (iblk m c 1 t) (iblk m c 2 t) (iblk m c 3 t) (iblk m c 4 t) (iblk m c 5 t)
    (iblk m c 6 t) u r k).trans ?_
  show _ = Spec.out _ _ _ _ _ _ _ (M t) (Fc t r) k
  unfold Spec.out
  rw [blk6]
  refine congrArg (fun z => max (z + _) 0) (congrArg (runMax 23) (funext fun s => ?_))
  unfold Spec.feat
  refine Finset.sum_congr rfl fun cc _ => ?_
  unfold bdir Spec.dir
  rw [blk0, blk1, blk1, blk1, blk2, blk3, blk4, blk5]

/-- WHAT POINT `t` WRITES BACK is its block of `Spec.G` of the arguments. -/
theorem flushed_eq (t : Fin cfg0.N) :
    (dats m 0 c).flushed 7 t = ((cfg0.win 7).blk t).view.read (Elt Ideal) (Gm m c) := by
  rw [Value.flushed7]
  funext y
  show out0_7 (iblk m c 0 t) (iblk m c 1 t) (iblk m c 2 t) (iblk m c 3 t) (iblk m c 4 t) (iblk m c 5 t) (iblk m c 6 t) y
    = Gm m c (((cfg0.win 7).blk t).view.emb y)
  refine (point_eq m c t y).trans (congrArg (Gm m c) (funext fun a => Fin.ext ?_))
  have h0 : (y 0).val < 1 := (y 0).isLt
  match a with
  | ⟨0, _⟩ => show win0_7.index t (0 : Fin 3) = win0_7.index t (0 : Fin 3) * 1 + 1 * (y 0).val; omega
  | ⟨1, _⟩ => show win0_7.index t (1 : Fin 3) * 2048 + (y 1).val = win0_7.index t (1 : Fin 3) * 2048 + 1 * (y 1).val; omega
  | ⟨2, _⟩ =>
    have e72 := (idx_facts t).2.2.2.2.2.2.2.2.2.2.2.2.2.2.2.2.2.2
    show (y 2).val = win0_7.index t (2 : Fin 3) * 64 + 1 * (y 2).val; omega

/-- An index of the array is in point `t`'s block iff each coordinate is in the block's range on its axis. -/
theorem mem_blk (t : Fin cfg0.N) (i : S8x16384x64.Idx) :
    i ∈ ((cfg0.win 7).blk t).view.set ↔ ∀ a : Fin 3, win0_7.index t a * S1x2048x64.size a ≤ (i a).val
      ∧ (i a).val < win0_7.index t a * S1x2048x64.size a + S1x2048x64.size a := by
  show i ∈ ((View.whole main_v9).slice (win0_7.rect t)).set ↔ _
  rw [View.set_slice_whole, Rect.mem_set_unit]
  exact Iff.rfl

/-- The 64 blocks cover the result array. -/
theorem cover (i : S8x16384x64.Idx) :
    ∃ t : Fin cfg0.N, (cfg0.win 7).flush t = true ∧ i ∈ ((cfg0.win 7).blk t).view.set := by
  have hi0 : (i 0).val < 8 := (i 0).isLt
  have hi1 : (i 1).val < 16384 := (i 1).isLt
  have hi2 : (i 2).val < 64 := (i 2).isLt
  obtain ⟨t, ht⟩ := idx_onto ⟨(i 0).val, hi0⟩ ⟨(i 1).val / 2048, by omega⟩
  have q0 : win0_7.index t (0 : Fin 3) = (i 0).val := congrFun ht 0
  have q1 : win0_7.index t (1 : Fin 3) = (i 1).val / 2048 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 2048 ≤ (i 1).val ∧ (i 1).val < win0_7.index t (1 : Fin 3) * 2048 + 2048; omega
  | ⟨2, _⟩ => show win0_7.index t (2 : Fin 3) * 64 ≤ (i 2).val ∧ (i 2).val < win0_7.index t (2 : Fin 3) * 64 + 64; omega

/-- THE RESULT ARRAY after the run is `Spec.G` of the arguments. -/
theorem final : (dats m 0 c).arrAt 7 cfg0.N = Gm m c :=
  (dats m 0 c).arrAt_eq_of_cover 7 (Gm m c) (fun t _ => flushed_eq m c t) (cover)

/-- The kernel's run: it terminates with the result array at `Spec.G` of the arguments, the arguments unchanged. -/
theorem run : θ_run defs (onTc (τ := τ) (main (F := Ideal))) ⟨m, fun _ => 0, ρ⟩ fun r => ∀ c : Dev nD,
      r.2.mem ((c : Thread nD τ).loc main_v9) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.KernelValue

end
-- ==== Proof.RefValue.lean ====
/-
  The reference's result array is `Spec.G` of the arguments.

  Read at `(m, f, k)`, the reference's last operation is the maximum, from `-∞`, over the 24 samples `s` of
  `max (feat m f s k + b k) 0`: the samples' axis is the one the reduction drops, the concatenation of eight copies of
  the corners along the neighbour axis reads neighbour `s mod 3`, the three slices pick corner 0, 1 and 2, the weights
  are broadcast over mesh and coordinate, the centre over the samples, and the contraction with `W` runs over the
  coordinate. The law `RunningMax.fold_max_clamp_bias` turns that maximum of clamped, biased responses into the
  clamp of the biased running maximum, which is `Spec.out`.
-/
import proofs.«178818_j79757542686884_2_alg».proof.Proof.Gen.ReferenceIdeal.Read
import proofs.«178818_j79757542686884_2_alg».proof.Proof.Spec
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx RunningMax

variable (x0 : S8x16384x3.Idx → EReal) (x2 : S8x16384x3x3x3.Idx → EReal) (x3 x4 x5 : S16384x24.Idx → EReal)
  (x6 : S64x3.Idx → EReal) (x7 : S64.Idx → EReal)

/-- The eightfold concatenation along the neighbour axis reads neighbour `s mod 3`. -/
theorem tiled_apply (m : Fin 8) (f : Fin 16384) (s : Fin 24) (e c : Fin 3) :
    val_main_v0 (F := Ideal) x2 (ix5 m f s e c : S8x16384x24x3x3.Idx) = x2 (ix5 m f (Spec.nb s) e c) := by
  unfold val_main_v0
  exact concatenate_replicate_apply (t := S8x16384x24x3x3) (2 : Fin 5) 8 x2 _ rfl (ix5 m f s e c) (ix5 m f (Spec.nb s) e c) rfl
    (fun b hb => match b with
      | ⟨0, _⟩ => rfl
      | ⟨1, _⟩ => rfl
      | ⟨2, _⟩ => absurd rfl hb
      | ⟨3, _⟩ => rfl
      | ⟨4, _⟩ => rfl)

/-- The position of `(m, f, s, c)` in a `[8, 16384, 24, 3]` array is that of `(m, f, s, 0, c)` in `[8, 16384, 24, 1, 3]`. -/
theorem unit_axis_idx (m : Fin 8) (f : Fin 16384) (s : Fin 24) (c : Fin 3) :
    idx_main_v2 (ix4 m f s c) = ix5 m f s (0 : Fin 1) c := by
  have hm := m.isLt; have hf := f.isLt; have hs := s.isLt; have hc := c.isLt
  funext a; apply Fin.ext
  match a with
  | ⟨0, _⟩ => show (((m.val * 16384 + f.val) * 24 + s.val) * 3 + c.val) / 1179648 = m.val; omega
  | ⟨1, _⟩ => show (((m.val * 16384 + f.val) * 24 + s.val) * 3 + c.val) / 72 % 16384 = f.val; omega
  | ⟨2, _⟩ => show (((m.val * 16384 + f.val) * 24 + s.val) * 3 + c.val) / 3 % 24 = s.val; omega
  | ⟨3, _⟩ => rfl
  | ⟨4, _⟩ => show (((m.val * 16384 + f.val) * 24 + s.val) * 3 + c.val) % 3 = c.val; omega

/-- Corner 0 of the sampled neighbour. -/
theorem corner0_apply (m : Fin 8) (f : Fin 16384) (s : Fin 24) (c : Fin 3) :
    val_main_v2 (F := Ideal) x2 (ix4 m f s c) = x2 (ix5 m f (Spec.nb s) (0 : Fin 3) c) := by
  rw [val_main_v2_apply, unit_axis_idx, val_main_v1_apply,
    show idx_main_v1 (ix5 m f s (0 : Fin 1) c) = ix5 m f s (0 : Fin 3) c from funext fun a => Fin.ext
      (match a with | ⟨0, _⟩ => rfl | ⟨1, _⟩ => rfl | ⟨2, _⟩ => rfl | ⟨3, _⟩ => rfl | ⟨4, _⟩ => rfl)]
  exact tiled_apply x2 m f s 0 c

/-- Corner 1 of the sampled neighbour. -/
theorem corner1_apply (m : Fin 8) (f : Fin 16384) (s : Fin 24) (c : Fin 3) :
    val_main_v4 (F := Ideal) x2 (ix4 m f s c) = x2 (ix5 m f (Spec.nb s) (1 : Fin 3) c) := by
  rw [val_main_v4_apply, show idx_main_v4 (ix4 m f s c) = ix5 m f s (0 : Fin 1) c from unit_axis_idx m f s c,
    val_main_v3_apply,
    show idx_main_v3 (ix5 m f s (0 : Fin 1) c) = ix5 m f s (1 : Fin 3) c from funext fun a => Fin.ext
      (match a with | ⟨0, _⟩ => rfl | ⟨1, _⟩ => rfl | ⟨2, _⟩ => rfl | ⟨3, _⟩ => rfl | ⟨4, _⟩ => rfl)]
  exact tiled_apply x2 m f s 1 c

/-- Corner 2 of the sampled neighbour. -/
theorem corner2_apply (m : Fin 8) (f : Fin 16384) (s : Fin 24) (c : Fin 3) :
    val_main_v6 (F := Ideal) x2 (ix4 m f s c) = x2 (ix5 m f (Spec.nb s) (2 : Fin 3) c) := by
  rw [val_main_v6_apply, show idx_main_v6 (ix4 m f s c) = ix5 m f s (0 : Fin 1) c from unit_axis_idx m f s c,
    val_main_v5_apply,
    show idx_main_v5 (ix5 m f s (0 : Fin 1) c) = ix5 m f s (2 : Fin 3) c from funext fun a => Fin.ext
      (match a with | ⟨0, _⟩ => rfl | ⟨1, _⟩ => rfl | ⟨2, _⟩ => rfl | ⟨3, _⟩ => rfl | ⟨4, _⟩ => rfl)]
  exact tiled_apply x2 m f s 2 c

/-- A sample weight broadcast over mesh and coordinate. -/
theorem weight_apply (x : S16384x24.Idx → EReal) (m : Fin 8) (f : Fin 16384) (s : Fin 24) (c : Fin 3) :
    val_main_v10 (F := Ideal) x (ix4 m f s c) = x (ix2 f s) := by
  rw [val_main_v10_apply, val_main_v7_apply]
  exact congrArg x (funext fun a => match a with | ⟨0, _⟩ => rfl | ⟨1, _⟩ => rfl)

/-- The face's centre broadcast over the samples. -/
theorem centre_apply (m : Fin 8) (f : Fin 16384) (s : Fin 24) (c : Fin 3) :
    val_main_v19 (F := Ideal) x0 (ix4 m f s c) = x0 (ix3 m f c) := by
  rw [val_main_v19_apply, val_main_v18_apply]
  exact congrArg x0 (funext fun a => match a with | ⟨0, _⟩ => rfl | ⟨1, _⟩ => rfl | ⟨2, _⟩ => rfl)

/-- The direction array is `Spec.dir`. -/
theorem dir_apply (m : Fin 8) (f : Fin 16384) (s : Fin 24) (c : Fin 3) :
    val_main_v20 (F := Ideal) x0 x2 x3 x4 x5 (ix4 m f s c) = Spec.dir x0 x2 x3 x4 x5 m f s c := by
  rw [val_main_v20_apply, val_main_v17_apply, val_main_v14_apply, val_main_v11_apply, val_main_v13_apply,
    val_main_v16_apply, centre_apply, corner0_apply, corner1_apply, corner2_apply, weight_apply]
  rw [show val_main_v12 (F := Ideal) x4 (ix4 m f s c) = x4 (ix2 f s) from weight_apply x4 m f s c,
    show val_main_v15 (F := Ideal) x5 (ix4 m f s c) = x5 (ix2 f s) from weight_apply x5 m f s c]
  rfl

/-- One sample's clamped, biased response. -/
theorem sample_apply (m : Fin 8) (f : Fin 16384) (s : Fin 24) (k : Fin 64) :
    val_main_v25 (F := Ideal) x0 x2 x3 x4 x5 x6 x7 (ix4 m f s k)
      = max (Spec.feat x0 x2 x3 x4 x5 x6 m f s k + x7 (ix1 k)) 0 := by
  rw [val_main_v25_apply, val_main_v24_apply, val_main_v21_apply, val_main_v23_apply, val_main_v22_apply,
    val_main_call0_v0_apply, val_main_call0_cst_apply]
  show max ((∑ c : Fin 3, val_main_v20 (F := Ideal) x0 x2 x3 x4 x5 (lidx_main_v21 (ix4 m f s k) c)
      * x6 (ridx_main_v21 (ix4 m f s k) c)) + x7 (idx_main_v22 (idx_main_v23 (ix4 m f s k))))
    (Ideal.ofBits .f32 0x00000000#32) = _
  rw [Ideal.ofBits_zero_f32, show idx_main_v22 (idx_main_v23 (ix4 m f s k)) = ix1 k from
    funext fun a => match a with | ⟨0, _⟩ => rfl]
  unfold Spec.feat
  refine congrArg (fun y => max (y + x7 (ix1 k)) 0) (Finset.sum_congr rfl fun c _ => ?_)
  rw [show lidx_main_v21 (ix4 m f s k) c = ix4 m f s c from
      funext fun a => match a with | ⟨0, _⟩ => rfl | ⟨1, _⟩ => rfl | ⟨2, _⟩ => rfl | ⟨3, _⟩ => rfl,
    show ridx_main_v21 (ix4 m f s k) c = ix2 k c from funext fun a => match a with | ⟨0, _⟩ => rfl | ⟨1, _⟩ => rfl,
    dir_apply]

/-- The samples' axis, dropped by the reduction. -/
theorem hred : S8x16384x24x64.Reduces [2] S8x16384x64 := by decide

/-- The index over `(m, f, k)` with sample `s` inserted on the dropped axis is `(m, f, s, k)`. -/
theorem lift_idx (m : Fin 8) (f : Fin 16384) (s : Fin 24) (k : Fin 64) :
    hred.lift (ix3 m f k) s = ix4 m f s k :=
  funext fun a => Fin.ext (match a with | ⟨0, _⟩ => rfl | ⟨1, _⟩ => rfl | ⟨2, _⟩ => rfl | ⟨3, _⟩ => rfl)

/-- The reference's result array is `Spec.G` of the arguments. -/
theorem result_eq :
    val_main_v26 (F := Ideal) x0 x2 x3 x4 x5 x6 x7 = Spec.G x0 x2 x3 x4 x5 x6 x7 := by
  funext i
  obtain ⟨m, f, k, rfl⟩ : ∃ (m : Fin 8) (f : Fin 16384) (k : Fin 64), i = ix3 m f k := ⟨i 0, i 1, i 2, eq_ix3 i⟩
  rw [Spec.G_apply]
  unfold Spec.out val_main_v26
  rw [Host.reduce_eq_fold_single FloatOps.maximumf _ _ reducesTo_S8x16384x24x64_S8x16384x64_d2 hred h_S_ (ix3 m f k)]
  refine Eq.trans ?_ (fold_max_clamp_bias 23 (fun s => Spec.feat x0 x2 x3 x4 x5 x6 m f s k) (x7 (ix1 k)))
  show (Finset.univ : Finset (Fin 24)).fold max (Ideal.ofBits .f32 0xFF800000#32)
      (fun s : Fin 24 => val_main_v25 (F := Ideal) x0 x2 x3 x4 x5 x6 x7 (hred.lift (ix3 m f k) s)) = _
  rw [show Ideal.ofBits .f32 0xFF800000#32 = (⊥ : EReal) by simp [Ideal.ofBits, Ideal.ieee]]
  refine congrArg (Finset.univ.fold max ⊥) (funext fun s : Fin 24 => ?_)
  rw [lift_idx, sample_apply]

end Cert.ReferenceIdeal.RefValue

end
-- ==== Proof.lean ====
/-
  The kernel computes, for each mesh `m`, face `f` and kernel row `k`,
  `max ((max over the 24 samples s of Σ_c dir m f s c · W[k, c]) + b[k]) 0`, the bias and the clamp taken out of the
  maximum over the samples; the reference computes `max over s of max (Σ_c dir m f s c · W[k, c] + b[k]) 0` from `-∞`.
  On the extended reals `y ↦ max (y + b) 0` is monotone and commutes with `max`, so the two are one function
  (`RunningMax.fold_max_clamp_bias`); no finiteness of the inputs is used.

  `Spec.G` is that function of the argument arrays. `KernelValue.run`: the idealized kernel's run ends with its result
  array at `Spec.G` (the body's block read index by index, the host operations before the region read at an index,
  the 64 blocks tiling the array). `RefValue.result_eq`: the reference's run, read one operation at a time, ends at
  `Spec.G`. The three frames are the programs' runs with the results dropped; the idealization rewrote nothing.
-/
import proofs.«178818_j79757542686884_2_alg».proof.Defs
import proofs.«178818_j79757542686884_2_alg».proof.Proof.Gen.Kernel
import proofs.«178818_j79757542686884_2_alg».proof.Proof.Gen.Kernel.Skeleton
import proofs.«178818_j79757542686884_2_alg».proof.Proof.Gen.Kernel.Launch
import proofs.«178818_j79757542686884_2_alg».proof.Proof.Gen.Kernel.Points
import proofs.«178818_j79757542686884_2_alg».proof.Proof.Gen.Kernel.Frame
import proofs.«178818_j79757542686884_2_alg».proof.Proof.Gen.KernelIdeal
import proofs.«178818_j79757542686884_2_alg».proof.Proof.Gen.KernelIdeal.Skeleton
import proofs.«178818_j79757542686884_2_alg».proof.Proof.Gen.KernelIdeal.Launch
import proofs.«178818_j79757542686884_2_alg».proof.Proof.Gen.KernelIdeal.Points
import proofs.«178818_j79757542686884_2_alg».proof.Proof.Gen.KernelIdeal.Frame
import proofs.«178818_j79757542686884_2_alg».proof.Proof.Gen.ReferenceIdeal
import proofs.«178818_j79757542686884_2_alg».proof.Proof.Gen.Pre_finite_inputs
import proofs.«178818_j79757542686884_2_alg».proof.Proof.Gen.KernelIdeal.Value
import proofs.«178818_j79757542686884_2_alg».proof.Proof.Gen.ReferenceIdeal.Run
import proofs.«178818_j79757542686884_2_alg».proof.Proof.Gen.ReferenceIdeal.Read
import proofs.«178818_j79757542686884_2_alg».proof.Proof.KernelValue
import proofs.«178818_j79757542686884_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with their result arrays at `Spec.G` of the
    arguments. -/
theorem algebraic : Cert.algebraic_KernelIdeal_ReferenceIdeal := by
  intro m ρ m' ρ' _ hagree
  refine ⟨fun c => Cert.KernelIdeal.KernelValue.Gm m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq]
  obtain ⟨a0, a1, a2, a3, a4, a5, a6, a7⟩ := hagree c
  rw [a0, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
